-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1536x2048 : Shape := ⟨3, ![4, 1536, 2048]⟩
abbrev S_ : Shape := ⟨0, ![]⟩

class Facts : Prop where
  bcast_S_S4x1536x2048 : S_.BroadcastsInDim S4x1536x2048 (![] : Fin 0 → Fin S4x1536x2048.rank)
  reducesTo_S4x1536x2048_S_d0_1_2 : S4x1536x2048.ReducesTo [0, 1, 2] S_
  h_S_ : 0 < S_.numel

variable [Facts]

def fn {F : FTy → Type} [FloatOps F] (main_arg0 : FVec F S4x1536x2048 .f32) : IVec S_ 1 :=
  let main_v0 : FVec F S4x1536x2048 .f32 := Host.absf main_arg0
  let main_cst : FVec F S_ .f32 := constant S_ .f32 0x7F800000#32
  let main_v1 : FVec F S4x1536x2048 .f32 := broadcastInDim S4x1536x2048 ![] bcast_S_S4x1536x2048 main_cst
  let main_v2 : IVec S4x1536x2048 1 := cmpf .olt main_v0 main_v1
  let main_c : IVec S_ 1 := constantI S_ 1 1#1
  let main_v3 : IVec S_ 1 := (fun x v => Host.reduce IntOp.andi x v reducesTo_S4x1536x2048_S_d0_1_2 h_S_) main_v2 main_c
  main_v3
-- ==== Kernel.lean ====
abbrev S4x1536x2048 : Shape := ⟨3, ![4, 1536, 2048]⟩
abbrev S4x512x2048 : Shape := ⟨3, ![4, 512, 2048]⟩
abbrev S1x64x2048 : Shape := ⟨3, ![1, 64, 2048]⟩
abbrev S64x2048 : Shape := ⟨2, ![64, 2048]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 2
  | .vmem => 8
  | .smem => 0
  | _ => 0

abbrev bufTy : (tb : Table) → Fin (tcTables nBuf tb) → BufTy
  | .hbm, ⟨0, _⟩ => ⟨S4x1536x2048, .f32⟩
  | .hbm, ⟨1, _⟩ => ⟨S4x512x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | _, _ => ⟨S4x1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  reduces_S2048x2048_S2048 : S2048x2048.Reduces [1] S2048
  shapeCasts_S2048_S2048x1 : S2048.ShapeCasts S2048x1
  broadcasts_S2048x1_S2048x2048 : S2048x1.Broadcasts S2048x2048
  shapeCasts_S64x2048_S1x64x2048 : S64x2048.ShapeCasts S1x64x2048
  dot_S64x2048_S64x2048_S2048x2048_0_0_1_1_n_n_wf : DotDims.WF S64x2048 S64x2048 S2048x2048 [0] [0] [1] [1] [] []
  dot_S64x2048_S2048x2048_S64x2048_1_1_0_0_n_n_wf : DotDims.WF S64x2048 S2048x2048 S64x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S4x1536x2048.size a
  hwx0_0 : ∀ i : grid0.Coords, EltTy.bits .f32 = 32 ∨ (Rect.block (s := S4x1536x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S4x1536x2048.size a
  hwx0_1 : ∀ i : grid0.Coords, EltTy.bits .f32 = 32 ∨ (Rect.block (s := S4x1536x2048) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2048.size a ≤ S4x1536x2048.size a
  hwx0_2 : ∀ i : grid0.Coords, EltTy.bits .f32 = 32 ∨ (Rect.block (s := S4x1536x2048) S1x64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x2048.size a ≤ S4x512x2048.size a
  hwx0_3 : ∀ i : grid0.Coords, EltTy.bits .f32 = 32 ∨ (Rect.block (s := S4x512x2048) S1x64x2048.size (cc0_transform_3 i) (hinb0_3 i)).WholeWords (EltTy.packing .f32)

variable [Facts₀]

def dot_S64x2048_S64x2048_S2048x2048_0_0_1_1_n_n : DotDims S64x2048 S64x2048 S2048x2048 where
  lhsContracting := [0]
  rhsContracting := [0]
  lhsNonContracting := [1]
  rhsNonContracting := [1]
  lhsBatch := []
  rhsBatch := []
  wf := dot_S64x2048_S64x2048_S2048x2048_0_0_1_1_n_n_wf
def dot_S64x2048_S2048x2048_S64x2048_1_1_0_0_n_n : DotDims S64x2048 S2048x2048 S64x2048 where
  lhsContracting := [1]
  rhsContracting := [1]
  lhsNonContracting := [0]
  rhsNonContracting := [0]
  lhsBatch := []
  rhsBatch := []
  wf := dot_S64x2048_S2048x2048_S64x2048_1_1_0_0_n_n_wf

abbrev win0_0 : Pipeline.Window sig grid0 :=
  Pipeline.Window.ofSpec (Memref.whole main_arg0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1536x2048 : Shape := ⟨3, ![4, 1536, 2048]⟩
abbrev S4x512x2048 : Shape := ⟨3, ![4, 512, 2048]⟩
abbrev S_ : Shape := ⟨0, ![]⟩
abbrev S32x64x2048 : Shape := ⟨3, ![32, 64, 2048]⟩
abbrev S32x2048x2048 : Shape := ⟨3, ![32, 2048, 2048]⟩
abbrev S32x2048 : Shape := ⟨2, ![32, 2048]⟩
abbrev S32x2048x1 : Shape := ⟨3, ![32, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x1536x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S32x64x2048, .f32⟩
  | .hbm, ⟨8, _⟩ => ⟨S_, .f32⟩
  | .hbm, ⟨9, _⟩ => ⟨S4x512x2048, .f32⟩
  | .hbm, ⟨10, _⟩ => ⟨S4x512x2048, .f32⟩
  | .hbm, ⟨11, _⟩ => ⟨S32x64x2048, .f32⟩
  | .hbm, ⟨12, _⟩ => ⟨S32x64x2048, .f32⟩
  | .hbm, ⟨13, _⟩ => ⟨S32x2048x2048, .f32⟩
  | .hbm, ⟨14, _⟩ => ⟨S_, .f32⟩
  | .hbm, ⟨15, _⟩ => ⟨S32x2048, .f32⟩
  | .hbm, ⟨16, _⟩ => ⟨S_, .f32⟩
  | .hbm, ⟨17, _⟩ => ⟨S32x2048, .f32⟩
  | .hbm, ⟨18, _⟩ => ⟨S32x2048, .f32⟩
  | .hbm, ⟨19, _⟩ => ⟨S32x2048x1, .f32⟩
  | .hbm, ⟨20, _⟩ => ⟨S32x2048x2048, .f32⟩
  | .hbm, ⟨21, _⟩ => ⟨S32x2048x2048, .f32⟩
  | .hbm, ⟨22, _⟩ => ⟨S32x2048x2048, .f32⟩
  | .hbm, ⟨23, _⟩ => ⟨S_, .f32⟩
  | .hbm, ⟨24, _⟩ => ⟨S32x2048, .f32⟩
  | .hbm, ⟨25, _⟩ => ⟨S32x2048x1, .f32⟩
  | .hbm, ⟨26, _⟩ => ⟨S32x2048x2048, .f32⟩
  | .hbm, ⟨27, _⟩ => ⟨S32x2048x2048, .f32⟩
  | .hbm, ⟨28, _⟩ => ⟨S32x64x2048, .f32⟩
  | .hbm, ⟨29, _⟩ => ⟨S4x512x2048, .f32⟩
  | _, _ => ⟨S4x1536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  slices_S4x1536x2048_S4x512x2048_0_0_0 : S4x1536x2048.Slices ![0, 0, 0] S4x512x2048
  slices_S4x1536x2048_S4x512x2048_0_512_0 : S4x1536x2048.Slices ![0, 512, 0] S4x512x2048
  slices_S4x1536x2048_S4x512x2048_0_1024_0 : S4x1536x2048.Slices ![0, 1024, 0] S4x512x2048
  bcast_S_S4x512x2048 : S_.BroadcastsInDim S4x512x2048 (![] : Fin 0 → Fin S4x512x2048.rank)
  shapeCasts_S4x512x2048_S32x64x2048 : S4x512x2048.ShapeCasts S32x64x2048
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  shapeCasts_S32x64x2048_S4x512x2048 : S32x64x2048.ShapeCasts S4x512x2048
  dot_S32x64x2048_S32x64x2048_S32x2048x2048_1_1_2_2_0_0_wf : DotDims.WF S32x64x2048 S32x64x2048 S32x2048x2048 [1] [1] [2] [2] [0] [0]
  dot_S32x64x2048_S32x2048x2048_S32x64x2048_2_2_1_1_0_0_wf : DotDims.WF S32x64x2048 S32x2048x2048 S32x64x2048 [2] [2] [1] [1] [0] [0]

variable [Facts₀]

def dot_S32x64x2048_S32x64x2048_S32x2048x2048_1_1_2_2_0_0 : DotDims S32x64x2048 S32x64x2048 S32x2048x2048 where
  lhsContracting := [1]
  rhsContracting := [1]
  lhsNonContracting := [2]
  rhsNonContracting := [2]
  lhsBatch := [0]
  rhsBatch := [0]
  wf := dot_S32x64x2048_S32x64x2048_S32x2048x2048_1_1_2_2_0_0_wf
def dot_S32x64x2048_S32x2048x2048_S32x64x2048_2_2_1_1_0_0 : DotDims S32x64x2048 S32x2048x2048 S32x64x2048 where
  lhsContracting := [2]
  rhsContracting := [2]
  lhsNonContracting := [1]
  rhsNonContracting := [1]
  lhsBatch := [0]
  rhsBatch := [0]
  wf := dot_S32x64x2048_S32x2048x2048_S32x64x2048_2_2_1_1_0_0_wf

class Facts : Prop extends Facts₀ where

variable [Facts]
-- ==== Proof.KernelRun.lean ====
/-
  The run of `Kernel`'s one pipelined region, for any float instance.

  The region's grid has 32 points (batch, head). At point (b, h) the pipeline copies three 1 × 64 × 2048 blocks of
  the ONE packed array into staging buffers — rows h*64.., 512 + h*64.., 1024 + h*64.. of batch b: queries, keys,
  values —, runs the body, and copies the output buffer back to rows h*64.. of batch b of the result array. The
  three input windows read the same array, so the array's full share is dealt among them in thirds (a half and
  two quarters); the result array is held outright.

  The body loads the three blocks, loads the output buffer (a value it never uses), and stores ONE value over the
  whole output buffer: the attention payload of the three loaded blocks. So after the body the output buffer
  holds `headBlock q k v`, and the input buffers what they held.

  The run's conclusion: every weakly fair execution of @main terminates without a fault, and each window's array
  ends at what the write-backs of all 32 points leave of its contents at entry (`Dat.arrAt`): for the packed array,
  its contents at entry; for the result, each block overwritten by that point's `headBlock`.
-/
import proofs.«172822_j14516989460772_1_alg».proof.Proof.Gen.Kernel.Launch
import proofs.«172822_j14516989460772_1_alg».proof.Proof.Gen.Kernel.Skeleton
import proofs.«172822_j14516989460772_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region alone -/

/-- Core `c`'s buffers when the region is entered: as launched. -/
abbrev atEntry (c : Dev nD) (b : Ref sig .tc) : Buf (Elt F) ((c : Thread nD τ).loc b) := m ((c : Thread nD τ).loc b)

theorem main_is_region (𝒱₀ : Variants) :
    Pipeline.HMain (Ix := Unit) (Name := ℕ) (U := UR sig nD τ) (Lvl := ℕ) cfgs 0 defs₀ 𝒱₀ m (main (F := F)) (atEntry m) :=
  Pipeline.hmain_region cfgs 0 defs₀ 𝒱₀ m main fun c => (main_chain c).trans rfl

/-! ## Blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The one rectangle the body loads and stores through: a whole staging buffer. -/
abbrev whole : Rect S1x64x2048 := Rect.unit (s := S1x64x2048) ![0, 0, 0] S1x64x2048.size inb_S1x64x2048_S1x64x2048_0_0_0

/-- What the output buffer holds after the body, from the three input blocks: the body's one store. -/
def headBlock (xq xk xv : Vec F S1x64x2048 .f32) : Vec F S1x64x2048 .f32 :=
  View.canon [⟨whole, k0_pay1 (View.ld xq whole) (View.ld xk whole) (View.ld xv whole)⟩]

/-- That store covers the buffer. -/
theorem whole_covers (p0 : Vec F S1x64x2048 .f32) (y : S1x64x2048.Idx) :
    ∃ pc ∈ ([⟨whole, p0⟩] : List (View.Piece (Elt F) S1x64x2048 .f32)), y ∈ pc.1.set :=
  View.cover_of_tiled [⟨whole, p0⟩] S1x64x2048.size (by rfl) y

/-! ## The body -/

set_option maxHeartbeats 1000000 in
/-- The body on whole staging memrefs, the inputs' at `xq xk xv` and the output's at anything, leaves the inputs' as
    they were and the output's at `headBlock xq xk xv`. -/
theorem body_triple (c : Dev nD) (E : Set ℕ) (i : grid0.Coords)
    (aq : Memref sig .tc .vmem S1x64x2048 .f32) (haq : aq.IsWhole) (ak : Memref sig .tc .vmem S1x64x2048 .f32) (hak : ak.IsWhole)
    (av : Memref sig .tc .vmem S1x64x2048 .f32) (hav : av.IsWhole) (ao : Memref sig .tc .vmem S1x64x2048 .f32) (hao : ao.IsWhole)
    (xq xk xv : Vec F S1x64x2048 .f32) (K : PUnit → sProp 𝕄) :
    iprop(owns (c : Thread nD τ) aq fullShare xq ∗ owns (c : Thread nD τ) ak fullShare xk ∗ owns (c : Thread nD τ) av fullShare xv
        ∗ (∃ d, owns (c : Thread nD τ) ao fullShare d)
        ∗ (iprop(owns (c : Thread nD τ) aq fullShare xq ∗ owns (c : Thread nD τ) ak fullShare xk ∗ owns (c : Thread nD τ) av fullShare xv
            ∗ owns (c : Thread nD τ) ao fullShare (headBlock xq xk xv)) -∗ K ⟨⟩))
      ⊢ wp frame (wpE (defs₀ (F := F)) Variants.none c none) E (cc0__attn_kernel i aq haq ak hak av hav ao hao) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole_covers _)

/-! ## The proof data -/

/-- On core `c`: the arrays as the region finds them; after the body at point `t` each input buffer at its block and
    the output buffer at `headBlock` of the three; between points only the core's other scoped buffers (none); the
    packed array's share dealt in a half and two quarters; nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => headBlock (blockAt m c 0 t) (blockAt m c 1 t) (blockAt m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = atEntry m c (Pipeline.arrRef spec0 w) := by
  dsimp only [dats]

theorem after_q (c : Dev nD) (t : Fin cfg0.N) : (dats m 0 c).after 0 t = blockAt m c 0 t := by dsimp only [dats]
theorem after_k (c : Dev nD) (t : Fin cfg0.N) : (dats m 0 c).after 1 t = blockAt m c 1 t := by dsimp only [dats]
theorem after_v (c : Dev nD) (t : Fin cfg0.N) : (dats m 0 c).after 2 t = blockAt m c 2 t := by dsimp only [dats]
theorem after_o (c : Dev nD) (t : Fin cfg0.N) :
    (dats m 0 c).after 3 t = headBlock (blockAt m c 0 t) (blockAt m c 1 t) (blockAt m c 2 t) := by dsimp only [dats]

/-- Every input window is fetched at every point, so its buffer holds its block there. -/
theorem before_q (c : Dev nD) (t : Fin cfg0.N) (d) : (dats m 0 c).before 0 t d = blockAt m c 0 t :=
  ((dats m 0 c).before_fetched 0 t (fetch0_0 t) d).trans (by unfold Dat.fetched Dat.blockOf blockAt; rw [A_eq]; try rfl)
theorem before_k (c : Dev nD) (t : Fin cfg0.N) (d) : (dats m 0 c).before 1 t d = blockAt m c 1 t :=
  ((dats m 0 c).before_fetched 1 t (fetch0_1 t) d).trans (by unfold Dat.fetched Dat.blockOf blockAt; rw [A_eq]; try rfl)
theorem before_v (c : Dev nD) (t : Fin cfg0.N) (d) : (dats m 0 c).before 2 t d = blockAt m c 2 t :=
  ((dats m 0 c).before_fetched 2 t (fetch0_2 t) d).trans (by unfold Dat.fetched Dat.blockOf blockAt; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_v]
  rw [show (dats m 0 c).Φ t.succ = (dats m 0 c).Φ t.castSucc from rfl,
    show (dats m 0 c).owesAt () t.succ = (dats m 0 c).owesAt () t.castSucc from rfl,
    after_q, after_k, after_v, after_o]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at m c t

end Cert.Kernel.Run

end
-- ==== Proof.KernelLaunch.lean ====
/-
  The launch of `Kernel`'s region and what it concludes, for any float instance.

  The three input windows read ONE array, so the launch cannot hand each window its array at the full share. The
  packed array's points-to at the full share is split along the share — a half to the query window, a quarter each
  to the key and value windows — and the result array goes whole to the output window. Nothing else is unscoped and
  nothing else is scoped on the core, so the region's invariant between points is empty of resources the body names.

  Concluded: every weakly fair execution of @main terminates without a fault, each window's array ending at
  `Dat.arrAt` after all 32 points; in particular the packed array ends as launched.
-/
import proofs.«172822_j14516989460772_1_alg».proof.Proof.KernelRun

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are the packed array and the result array. -/
theorem arrays_are : Finset.univ.image (Pipeline.arrRef spec0) = {main_arg0, main_v0} := by decide

/-- The packed array at the full share is dealt to the three input windows; the result array goes to the output
    window whole. -/
theorem deal (c : Dev nD) :
    (Pipeline.arrBufs (Ix := Unit) (Name := ℕ) (U := UR sig nD τ) (Lvl := ℕ) spec0 c (atEntry m c) : sProp 𝕄)
      ⊢ (dats m 0 c).arrays ((dats m 0 c).arrAt · 0) := by
  have hL : (bigSep ({main_arg0, main_v0} : Finset (Ref sig .tc))
        (fun b => (((c.tc : Thread nD τ).loc b) ↦{fullShare} atEntry m c b : sProp 𝕄)))
      = iprop((((c.tc : Thread nD τ).loc main_arg0) ↦{fullShare} atEntry m c main_arg0)
          ∗ (((c.tc : Thread nD τ).loc main_v0) ↦{fullShare} atEntry m c main_v0)) := by
    rw [bigSep_insert (by decide), bigSep_singleton]; rfl
  unfold Pipeline.arrBufs Dat.arrays
  rw [arrays_are, hL, bigSep_W0, (arr_whole0 0).set_eq_univ, (arr_whole0 3).set_eq_univ]
  iintro ⟨HA, HO⟩
  ihave HA := (pointsTo_share (PosShare.mem_left_op_right fullShare)).1 $$ HA
  icases HA with ⟨Hq, HR⟩
  ihave HR := (pointsTo_share (PosShare.mem_left_op_right fullShare.right)).1 $$ HR
  icases HR with ⟨Hk, Hv⟩
  isplitl [Hq]; · iexact Hq
  isplitl [Hk]; · iexact Hk
  isplitl [Hv]; · iexact Hv
  iexact HO

set_option backward.isDefEq.respectTransparency.types false in
/-- Every weakly fair execution of @main terminates without a fault, each window's array ending at what the
    write-backs of all points leave of its contents at entry. -/
theorem run : θ_run defs (onTc (τ := τ) (main (F := F))) ⟨m, fun _ => 0, ρ⟩
    (fun r => ∀ c : Dev nD, ∀ w : Fin cfg0.W,
      r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := atEntry m) (hmain := main_is_region m Variants.none) (hsplit := deal m)
    (X := fun _ => BI.emp) (Y := fun _ => BI.emp) (Z := fun _ => BI.emp)
    (hX := fun c => by
      rw [unscopedRest0_eq]
      iintro -
      isplitl [] <;> iempintro)
    (hin := fun c => show iprop((BI.emp : sProp 𝕄) ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c from by
      iintro ⟨-, H⟩; iexact H)
    (hout := fun c => show Pipeline.scopedRest (Ix := Unit) (Name := ℕ) (U := UR sig nD τ) (Lvl := ℕ) (Val := Elt F) spec0 c
        ⊢ iprop((BI.emp : sProp 𝕄) ∗ Pipeline.scopedRest (Ix := Unit) (Name := ℕ) (U := UR sig nD τ) (Lvl := ℕ) (Val := Elt F) spec0 c) from by
      iintro H
      isplitr [H]; · iempintro
      iexact H)
    (QY := fun _ _ => True)
    (hY := fun c s' => by
      iintro ⟨-, -, HSI⟩
      imodintro
      isplitr [HSI]; · ipureintro; trivial
      iexact HSI)
    (hQ := fun s h c w => (h c).1 w)

/-- The packed array ends as launched: an input window's array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run m ρ)

end Cert.Kernel.Run

end
-- ==== Proof.KernelIdealRun.lean ====
/-
  The run of `KernelIdeal`'s one pipelined region, for any float instance.

  The region's grid has 32 points (batch, head). At point (b, h) the pipeline copies three 1 × 64 × 2048 blocks of
  the ONE packed array into staging buffers — rows h*64.., 512 + h*64.., 1024 + h*64.. of batch b: queries, keys,
  values —, runs the body, and copies the output buffer back to rows h*64.. of batch b of the result array. The
  three input windows read the same array, so the array's full share is dealt among them in thirds (a half and
  two quarters); the result array is held outright.

  The body loads the three blocks, loads the output buffer (a value it never uses), and stores ONE value over the
  whole output buffer: the attention payload of the three loaded blocks. So after the body the output buffer
  holds `headBlock q k v`, and the input buffers what they held.

  The run's conclusion: every weakly fair execution of @main terminates without a fault, and each window's array
  ends at what the write-backs of all 32 points leave of its contents at entry (`Dat.arrAt`): for the packed array,
  its contents at entry; for the result, each block overwritten by that point's `headBlock`.
-/
import proofs.«172822_j14516989460772_1_alg».proof.Proof.Gen.KernelIdeal.Launch
import proofs.«172822_j14516989460772_1_alg».proof.Proof.Gen.KernelIdeal.Skeleton
import proofs.«172822_j14516989460772_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region alone -/

/-- Core `c`'s buffers when the region is entered: as launched. -/
abbrev atEntry (c : Dev nD) (b : Ref sig .tc) : Buf (Elt F) ((c : Thread nD τ).loc b) := m ((c : Thread nD τ).loc b)

theorem main_is_region (𝒱₀ : Variants) :
    Pipeline.HMain (Ix := Unit) (Name := ℕ) (U := UR sig nD τ) (Lvl := ℕ) cfgs 0 defs₀ 𝒱₀ m (main (F := F)) (atEntry m) :=
  Pipeline.hmain_region cfgs 0 defs₀ 𝒱₀ m main fun c => (main_chain c).trans rfl

/-! ## Blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The one rectangle the body loads and stores through: a whole staging buffer. -/
abbrev whole : Rect S1x64x2048 := Rect.unit (s := S1x64x2048) ![0, 0, 0] S1x64x2048.size inb_S1x64x2048_S1x64x2048_0_0_0

/-- What the output buffer holds after the body, from the three input blocks: the body's one store. -/
def headBlock (xq xk xv : Vec F S1x64x2048 .f32) : Vec F S1x64x2048 .f32 :=
  View.canon [⟨whole, k0_pay1 (View.ld xq whole) (View.ld xk whole) (View.ld xv whole)⟩]

/-- That store covers the buffer. -/
theorem whole_covers (p0 : Vec F S1x64x2048 .f32) (y : S1x64x2048.Idx) :
    ∃ pc ∈ ([⟨whole, p0⟩] : List (View.Piece (Elt F) S1x64x2048 .f32)), y ∈ pc.1.set :=
  View.cover_of_tiled [⟨whole, p0⟩] S1x64x2048.size (by rfl) y

/-! ## The body -/

set_option maxHeartbeats 1000000 in
/-- The body on whole staging memrefs, the inputs' at `xq xk xv` and the output's at anything, leaves the inputs' as
    they were and the output's at `headBlock xq xk xv`. -/
theorem body_triple (c : Dev nD) (E : Set ℕ) (i : grid0.Coords)
    (aq : Memref sig .tc .vmem S1x64x2048 .f32) (haq : aq.IsWhole) (ak : Memref sig .tc .vmem S1x64x2048 .f32) (hak : ak.IsWhole)
    (av : Memref sig .tc .vmem S1x64x2048 .f32) (hav : av.IsWhole) (ao : Memref sig .tc .vmem S1x64x2048 .f32) (hao : ao.IsWhole)
    (xq xk xv : Vec F S1x64x2048 .f32) (K : PUnit → sProp 𝕄) :
    iprop(owns (c : Thread nD τ) aq fullShare xq ∗ owns (c : Thread nD τ) ak fullShare xk ∗ owns (c : Thread nD τ) av fullShare xv
        ∗ (∃ d, owns (c : Thread nD τ) ao fullShare d)
        ∗ (iprop(owns (c : Thread nD τ) aq fullShare xq ∗ owns (c : Thread nD τ) ak fullShare xk ∗ owns (c : Thread nD τ) av fullShare xv
            ∗ owns (c : Thread nD τ) ao fullShare (headBlock xq xk xv)) -∗ K ⟨⟩))
      ⊢ wp frame (wpE (defs₀ (F := F)) Variants.none c none) E (cc0__attn_kernel i aq haq ak hak av hav ao hao) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole_covers _)

/-! ## The proof data -/

/-- On core `c`: the arrays as the region finds them; after the body at point `t` each input buffer at its block and
    the output buffer at `headBlock` of the three; between points only the core's other scoped buffers (none); the
    packed array's share dealt in a half and two quarters; nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => headBlock (blockAt m c 0 t) (blockAt m c 1 t) (blockAt m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = atEntry m c (Pipeline.arrRef spec0 w) := by
  dsimp only [dats]

theorem after_q (c : Dev nD) (t : Fin cfg0.N) : (dats m 0 c).after 0 t = blockAt m c 0 t := by dsimp only [dats]
theorem after_k (c : Dev nD) (t : Fin cfg0.N) : (dats m 0 c).after 1 t = blockAt m c 1 t := by dsimp only [dats]
theorem after_v (c : Dev nD) (t : Fin cfg0.N) : (dats m 0 c).after 2 t = blockAt m c 2 t := by dsimp only [dats]
theorem after_o (c : Dev nD) (t : Fin cfg0.N) :
    (dats m 0 c).after 3 t = headBlock (blockAt m c 0 t) (blockAt m c 1 t) (blockAt m c 2 t) := by dsimp only [dats]

/-- Every input window is fetched at every point, so its buffer holds its block there. -/
theorem before_q (c : Dev nD) (t : Fin cfg0.N) (d) : (dats m 0 c).before 0 t d = blockAt m c 0 t :=
  ((dats m 0 c).before_fetched 0 t (fetch0_0 t) d).trans (by unfold Dat.fetched Dat.blockOf blockAt; rw [A_eq]; try rfl)
theorem before_k (c : Dev nD) (t : Fin cfg0.N) (d) : (dats m 0 c).before 1 t d = blockAt m c 1 t :=
  ((dats m 0 c).before_fetched 1 t (fetch0_1 t) d).trans (by unfold Dat.fetched Dat.blockOf blockAt; rw [A_eq]; try rfl)
theorem before_v (c : Dev nD) (t : Fin cfg0.N) (d) : (dats m 0 c).before 2 t d = blockAt m c 2 t :=
  ((dats m 0 c).before_fetched 2 t (fetch0_2 t) d).trans (by unfold Dat.fetched Dat.blockOf blockAt; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_v]
  rw [show (dats m 0 c).Φ t.succ = (dats m 0 c).Φ t.castSucc from rfl,
    show (dats m 0 c).owesAt () t.succ = (dats m 0 c).owesAt () t.castSucc from rfl,
    after_q, after_k, after_v, after_o]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at m c t

end Cert.KernelIdeal.Run

end
-- ==== Proof.KernelIdealLaunch.lean ====
/-
  The launch of `KernelIdeal`'s region and what it concludes, for any float instance.

  The three input windows read ONE array, so the launch cannot hand each window its array at the full share. The
  packed array's points-to at the full share is split along the share — a half to the query window, a quarter each
  to the key and value windows — and the result array goes whole to the output window. Nothing else is unscoped and
  nothing else is scoped on the core, so the region's invariant between points is empty of resources the body names.

  Concluded: every weakly fair execution of @main terminates without a fault, each window's array ending at
  `Dat.arrAt` after all 32 points; in particular the packed array ends as launched.
-/
import proofs.«172822_j14516989460772_1_alg».proof.Proof.KernelIdealRun

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are the packed array and the result array. -/
theorem arrays_are : Finset.univ.image (Pipeline.arrRef spec0) = {main_arg0, main_v0} := by decide

/-- The packed array at the full share is dealt to the three input windows; the result array goes to the output
    window whole. -/
theorem deal (c : Dev nD) :
    (Pipeline.arrBufs (Ix := Unit) (Name := ℕ) (U := UR sig nD τ) (Lvl := ℕ) spec0 c (atEntry m c) : sProp 𝕄)
      ⊢ (dats m 0 c).arrays ((dats m 0 c).arrAt · 0) := by
  have hL : (bigSep ({main_arg0, main_v0} : Finset (Ref sig .tc))
        (fun b => (((c.tc : Thread nD τ).loc b) ↦{fullShare} atEntry m c b : sProp 𝕄)))
      = iprop((((c.tc : Thread nD τ).loc main_arg0) ↦{fullShare} atEntry m c main_arg0)
          ∗ (((c.tc : Thread nD τ).loc main_v0) ↦{fullShare} atEntry m c main_v0)) := by
    rw [bigSep_insert (by decide), bigSep_singleton]; rfl
  unfold Pipeline.arrBufs Dat.arrays
  rw [arrays_are, hL, bigSep_W0, (arr_whole0 0).set_eq_univ, (arr_whole0 3).set_eq_univ]
  iintro ⟨HA, HO⟩
  ihave HA := (pointsTo_share (PosShare.mem_left_op_right fullShare)).1 $$ HA
  icases HA with ⟨Hq, HR⟩
  ihave HR := (pointsTo_share (PosShare.mem_left_op_right fullShare.right)).1 $$ HR
  icases HR with ⟨Hk, Hv⟩
  isplitl [Hq]; · iexact Hq
  isplitl [Hk]; · iexact Hk
  isplitl [Hv]; · iexact Hv
  iexact HO

set_option backward.isDefEq.respectTransparency.types false in
/-- Every weakly fair execution of @main terminates without a fault, each window's array ending at what the
    write-backs of all points leave of its contents at entry. -/
theorem run : θ_run defs (onTc (τ := τ) (main (F := F))) ⟨m, fun _ => 0, ρ⟩
    (fun r => ∀ c : Dev nD, ∀ w : Fin cfg0.W,
      r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := atEntry m) (hmain := main_is_region m Variants.none) (hsplit := deal m)
    (X := fun _ => BI.emp) (Y := fun _ => BI.emp) (Z := fun _ => BI.emp)
    (hX := fun c => by
      rw [unscopedRest0_eq]
      iintro -
      isplitl [] <;> iempintro)
    (hin := fun c => show iprop((BI.emp : sProp 𝕄) ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c from by
      iintro ⟨-, H⟩; iexact H)
    (hout := fun c => show Pipeline.scopedRest (Ix := Unit) (Name := ℕ) (U := UR sig nD τ) (Lvl := ℕ) (Val := Elt F) spec0 c
        ⊢ iprop((BI.emp : sProp 𝕄) ∗ Pipeline.scopedRest (Ix := Unit) (Name := ℕ) (U := UR sig nD τ) (Lvl := ℕ) (Val := Elt F) spec0 c) from by
      iintro H
      isplitr [H]; · iempintro
      iexact H)
    (QY := fun _ _ => True)
    (hY := fun c s' => by
      iintro ⟨-, -, HSI⟩
      imodintro
      isplitr [HSI]; · ipureintro; trivial
      iexact HSI)
    (hQ := fun s h c w => (h c).1 w)

/-- The packed array ends as launched: an input window's array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run m ρ)

end Cert.KernelIdeal.Run

end
-- ==== Proof.AttnSpec.lean ====
/-
  The specification: scaled dot-product attention of one head, as plain functions on the extended reals, and the
  whole result array as one function of the packed `qkv` array.

  The packed array has shape [4, 1536, 2048]: for batch `b` and head `h` (eight heads of 64 channels) the
  query rows are `h*64 + c`, the key rows `512 + h*64 + c`, the value rows `1024 + h*64 + c`. For one head, with
  `q k v : channel → position → value`,
      logit t s  = Σ_c (q c t · σ) · (k c s · σ)                      (σ the scale word, the same on both factors)
      rowMax t   = max(−∞, max over s of logit t s, folded from −∞)
      expo t s   = exp (logit t s − rowMax t)
      rowSum t   = Σ_s expo t s
      prob t s   = expo t s / rowSum t
      head c t   = Σ_s v c s · prob t s
  and the result at (b, h*64 + c, t) is `head` of the three row blocks of (b, h). Nothing here is evaluated: the
  scale and −∞ stay the 32-bit words both programs print.
-/
import Idealize.ShloMosaic.PureOps.Ideal
import Idealize.ShloMosaic.Lib.ValueIdx

noncomputable section

namespace Cert.Attn

open Idealize.ShloMosaic Idealize.ShloMosaic.ValueIdx

/-- The scale both programs multiply queries and keys by, as the f32 word they print. -/
abbrev sigma : EReal := Ideal.ofBits .f32 0x3EB504F3#32
/-- The f32 word of −∞, where both row maxima start. -/
abbrev negInf : EReal := Ideal.ofBits .f32 0xFF800000#32

/-- The logit of query position `t` against key position `s`: the scaled query column times the scaled key column. -/
def logit (q k : Fin 64 → Fin 2048 → EReal) (t s : Fin 2048) : EReal :=
  ∑ c : Fin 64, (q c t * sigma) * (k c s * sigma)

/-- The maximum of row `t` of a square array, folded from −∞ and once more joined with −∞. -/
def rowMax (w : Fin 2048 → Fin 2048 → EReal) (t : Fin 2048) : EReal :=
  max negInf ((Finset.univ : Finset (Fin 2048)).fold max negInf (fun s => w t s))

/-- The shifted exponential of an entry. -/
def expo (w : Fin 2048 → Fin 2048 → EReal) (t s : Fin 2048) : EReal := Ideal.exp (w t s - rowMax w t)

/-- The sum of row `t` of the shifted exponentials. -/
def rowSum (w : Fin 2048 → Fin 2048 → EReal) (t : Fin 2048) : EReal := ∑ s : Fin 2048, expo w t s

/-- The softmax weight of key position `s` for query position `t`. -/
def prob (w : Fin 2048 → Fin 2048 → EReal) (t s : Fin 2048) : EReal := Ideal.div (expo w t s) (rowSum w t)

/-- One head's output at channel `c`, position `t`: the values of channel `c` averaged with row `t`'s weights. -/
def head (q k v : Fin 64 → Fin 2048 → EReal) (c : Fin 64) (t : Fin 2048) : EReal :=
  ∑ s : Fin 2048, v c s * prob (logit q k) t s

/-- Row `off + h*64 + c` of the packed array's 1536 rows, for `off + 512 ≤ 1536`. -/
def packedRow (off : Nat) (hoff : off + 512 ≤ 1536) (h : Fin 8) (c : Fin 64) : Fin 1536 :=
  ⟨off + h.val * 64 + c.val, by have := h.isLt; have := c.isLt; omega⟩

/-- The 64 × 2048 block of the packed array at batch `b`, head `h`, rows offset by `off`. -/
def block (x : (⟨3, ![4, 1536, 2048]⟩ : Shape).Idx → EReal) (off : Nat) (hoff : off + 512 ≤ 1536) (b : Fin 4) (h : Fin 8) :
    Fin 64 → Fin 2048 → EReal := fun c t => x (ix3 b (packedRow off hoff h c) t)

/-- The result at batch `b`, head `h`, channel `c`, position `t`. -/
def outAt (x : (⟨3, ![4, 1536, 2048]⟩ : Shape).Idx → EReal) (b : Fin 4) (h : Fin 8) (c : Fin 64) (t : Fin 2048) : EReal :=
  head (block x 0 (by omega) b h) (block x 512 (by omega) b h) (block x 1024 (by omega) b h) c t

/-- The whole result array [4, 512, 2048] as one function of the packed array: row `r` is head `r / 64`, channel `r % 64`. -/
def G (x : (⟨3, ![4, 1536, 2048]⟩ : Shape).Idx → EReal) : (⟨3, ![4, 512, 2048]⟩ : Shape).Idx → EReal := fun i =>
  have h1 : (i 1).val < 512 := (i 1).isLt
  outAt x ⟨(i 0).val, (i 0).isLt⟩ ⟨(i 1).val / 64, by omega⟩ ⟨(i 1).val % 64, by omega⟩ ⟨(i 2).val, (i 2).isLt⟩

/-- `G` at an index given by coordinates. -/
theorem G_ix3 (x : (⟨3, ![4, 1536, 2048]⟩ : Shape).Idx → EReal) (b : Fin 4) (h : Fin 8) (c : Fin 64) (t : Fin 2048) :
    G x (ix3 b (⟨h.val * 64 + c.val, by have := h.isLt; have := c.isLt; omega⟩ : Fin 512) t) = outAt x b h c t := by
  have hh := h.isLt; have hc := c.isLt
  unfold G
  show outAt x ⟨b.val, _⟩ ⟨(h.val * 64 + c.val) / 64, _⟩ ⟨(h.val * 64 + c.val) % 64, _⟩ ⟨t.val, _⟩ = _
  congr 1
  · exact Fin.ext (by show (h.val * 64 + c.val) / 64 = h.val; omega)
  · exact Fin.ext (by show (h.val * 64 + c.val) % 64 = c.val; omega)

end Cert.Attn

end
-- ==== Proof.LibDotCol.lean ====
/-
  A matrix product that contracts the ROWS of both operands, read at an entry. For dimension numbers that contract the
  left operand's first axis against the right operand's first axis, with no batch axis — the product of the left
  operand's transpose with the right operand —, the contraction sum at row `a` and column `b` of the result is the
  sum over `k` of `l (k, a) * r (k, b)`, for the accumulate-into-zero product of the matrix unit at the exact
  extended-real instance.
-/
import Idealize.ShloMosaic.Lib.ValueIdx
import Idealize.ShloMosaic.PureOps.Ideal.Laws

noncomputable section

open scoped BigOperators

namespace Cert.LibDotCol

open Idealize.ShloMosaic Idealize.ShloMosaic.ValueIdx

/-- The six axis lists of a product contracting both operands' rows. -/
structure IsColCol {K M N : Nat} (D : DotDims ⟨2, ![K, M]⟩ ⟨2, ![K, N]⟩ ⟨2, ![M, N]⟩) : Prop where
  lc : D.lhsContracting = [0]
  rc : D.rhsContracting = [0]
  ln : D.lhsNonContracting = [1]
  rn : D.rhsNonContracting = [1]
  lb : D.lhsBatch = []
  rb : D.rhsBatch = []

variable {K M N : Nat} (D : DotDims ⟨2, ![K, M]⟩ ⟨2, ![K, N]⟩ ⟨2, ![M, N]⟩) (hD : IsColCol D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand's column is the result's row. -/
theorem lhs1 (j : (⟨2, ![M, N]⟩ : Shape).Idx) (q : D.contr.Idx) : (D.lhsIdx j q 1).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
/-- The right operand's column is the result's column. -/
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over the rows `k` of the two operands' entries in columns `a` and `b`. -/
theorem colcol_sum (l : (⟨2, ![K, M]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 k a) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 k a :=
    funext fun x => Fin.ext (by
      match x with
      | ⟨0, _⟩ => exact (D.lhsIdx_val_of_single hD.lc _ _).trans hk
      | ⟨1, _⟩ => exact lhs1 D hD _ _)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![K, M]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 k a) * r (ix2 k b) :=
  (Ideal.matmul_constant_zero_apply D prec l r (ix2 a b)).trans (colcol_sum D hD l r a b)

end Cert.LibDotCol

end
-- ==== Proof.LibDotRows.lean ====
/-
  A matrix product whose two operands both carry the contracted axis LAST. For dimension numbers that contract the last
  axis of the left operand `[M, K]` against the last axis of the right operand `[N, K]`, with no batch axis, the
  contraction sum at row `a` and column `b` of the `[M, N]` result is the sum over `k` of `l (a, k) * r (b, k)`: the left
  operand times the transpose of the right one. Stated for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDotRows

open Idealize.ShloMosaic Idealize.ShloMosaic.ValueIdx

/-- The six axis lists of a product that contracts the last axis of both operands. -/
structure IsRows {M K N : Nat} (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {M K N : Nat} (D : DotDims ⟨2, ![M, K]⟩ ⟨2, ![N, K]⟩ ⟨2, ![M, N]⟩) (hD : IsRows D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at the result's row. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
/-- The right operand's ROW is the result's column. -/
theorem rhs0 (j : (⟨2, ![M, N]⟩ : Shape).Idx) (q : D.contr.Idx) : (D.rhsIdx j q 0).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of row `a` of the left operand times row `b` of the right one. -/
theorem rows_sum (l : (⟨2, ![M, K]⟩ : Shape).Idx → EReal) (r : (⟨2, ![N, K]⟩ : Shape).Idx → EReal) (a : Fin M) (b : Fin N) :
    ∑ q : D.contr.Idx, l (D.lhsIdx (ix2 a b) q) * r (D.rhsIdx (ix2 a b) q) = ∑ k : Fin K, l (ix2 a k) * r (ix2 b k) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 b k :=
    funext fun x => Fin.ext (by
      match x with
      | ⟨0, _⟩ => exact rhs0 D hD _ _
      | ⟨1, _⟩ => exact (D.rhsIdx_val_of_single hD.rc _ _).trans hk)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![N, K]⟩ φ₂) (a : Fin M) (b : Fin N) :
    FloatOps.matmul D prec l r (constant ⟨2, ![M, N]⟩ .f32 0x00000000#32) (ix2 a b) = ∑ k : Fin K, l (ix2 a k) * r (ix2 b k) :=
  (Ideal.matmul_constant_zero_apply D prec l r (ix2 a b)).trans (rows_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![N, K]⟩ φ₂) (a : Fin M) (b : Fin N) :
    FloatOps.dotGeneral D prec sched l r (ix2 a b) = ∑ k : Fin K, l (ix2 a k) * r (ix2 b k) :=
  (Ideal.dotGeneral_apply D prec sched l r (ix2 a b)).trans (rows_sum D hD l r a b)

end Cert.LibDotRows

end
-- ==== Proof.LibCol.lean ====
/-
  Columns and rows read at an index: a vector of `a` entries laid out as a column `[a, 1]` or a row `[1, a]`, a column
  repeated along `b` lanes, and the source index of a reduction over the last axis of a two-axis array.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.LibCol

open Idealize.ShloMosaic Idealize.ShloMosaic.ValueIdx

variable {α : Type}

/-- An `[a]` vector cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` repeated along `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The host's repetition of a column `[a, 1]` along `b` lanes reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a row `[1, a]` reads, at `(u, q)`, the vector at `q`. -/
theorem broadcastInDim_a_1a_apply {a : ℕ} (x : (⟨1, ![a]⟩ : Shape).Idx → α)
    (h : (⟨1, ![a]⟩ : Shape).BroadcastsInDim ⟨2, ![1, a]⟩ ![1]) (u : Fin 1) (q : Fin a) :
    broadcastInDim ⟨2, ![1, a]⟩ ![1] h x (ix2 u q) = x (ix1 q) := by
  refine broadcastInDim_apply ![1] h x (ix2 u q) (ix1 q) fun ax => ?_
  match ax with
  | ⟨0, _⟩ =>
    show q.val = if a = 1 then 0 else q.val
    split
    · have := q.isLt; omega
    · rfl

/-- Reducing a two-axis array over its last axis: the source index over row `p` with lane `k` is `(p, k)`. -/
theorem lift_last {R C : ℕ} (h : (⟨2, ![R, C]⟩ : Shape).Reduces [1] ⟨1, ![R]⟩) (p : Fin R) (k : Fin C) :
    h.lift (ix1 p) k = ix2 p k :=
  funext fun c => Fin.ext (by
    match c with
    | ⟨0, _⟩ => rfl
    | ⟨1, _⟩ => rfl)

/-- Reducing a two-axis array over its first axis: the source index over lane `q` with row `k` is `(k, q)`. -/
theorem lift_first {R C : ℕ} (h : (⟨2, ![R, C]⟩ : Shape).Reduces [0] ⟨1, ![C]⟩) (q : Fin C) (k : Fin R) :
    h.lift (ix1 q) k = ix2 k q :=
  funext fun c => Fin.ext (by
    match c with
    | ⟨0, _⟩ => rfl
    | ⟨1, _⟩ => rfl)

end Cert.LibCol

end
-- ==== Proof.LibRowReduce.lean ====
/-
  Row and column reductions of a two-axis array read at an index, at the exact extended-real instance: the minimum,
  maximum and sum of a row `p` of an `[R, C]` array are the fold of `min` / `max` from the accumulator's value, or the sum, over
  the row's entries `src (p, c)`; the sum over the rows of a one-column array `[R, 1]` is the sum of its entries.
-/
import Idealize.ShloMosaic.Lib.ValueIdx
import Idealize.ShloMosaic.PureOps.Ideal.Laws
import Idealize.ShloMosaic.PureOps.Reduce
import proofs.«172822_j14516989460772_1_alg».proof.Proof.LibCol

noncomputable section

open scoped BigOperators

namespace Cert.LibRowReduce

open Idealize.ShloMosaic Idealize.ShloMosaic.ValueIdx

variable {R C : ℕ}

/-- The least entry of row `p`, from the accumulator's value. -/
theorem row_min (src : FVec Ideal ⟨2, ![R, C]⟩ .f32) (acc : BitVec 32) (h : (⟨2, ![R, C]⟩ : Shape).Reduces [1] ⟨1, ![R]⟩)
    (hφ : FKind.Formats .f32) (hacc : acc = FKind.minimumf.neutral .f32 hφ) (p : Fin R) :
    multiReduction .minimumf [1] ⟨1, ![R]⟩ src acc h hφ hacc (ix1 p)
      = (Finset.univ : Finset (Fin C)).fold min (Ideal.ofBits .f32 acc) fun c => src (ix2 p c) := by
  rw [multiReduction_minimumf_eq_fold]
  refine (h.fold_filter_drop_single _ _ src (ix1 p)).trans ?_
  exact congrArg (fun f => Finset.fold min (Ideal.ofBits .f32 acc) f (Finset.univ : Finset (Fin C)))
    (funext fun c => congrArg src (LibCol.lift_last h p c))

/-- The greatest entry of row `p`, from the accumulator's value. -/
theorem row_max (src : FVec Ideal ⟨2, ![R, C]⟩ .f32) (acc : BitVec 32) (h : (⟨2, ![R, C]⟩ : Shape).Reduces [1] ⟨1, ![R]⟩)
    (hφ : FKind.Formats .f32) (hacc : acc = FKind.maximumf.neutral .f32 hφ) (p : Fin R) :
    multiReduction .maximumf [1] ⟨1, ![R]⟩ src acc h hφ hacc (ix1 p)
      = (Finset.univ : Finset (Fin C)).fold max (Ideal.ofBits .f32 acc) fun c => src (ix2 p c) := by
  rw [multiReduction_maximumf_eq_fold]
  refine (h.fold_filter_drop_single _ _ src (ix1 p)).trans ?_
  exact congrArg (fun f => Finset.fold max (Ideal.ofBits .f32 acc) f (Finset.univ : Finset (Fin C)))
    (funext fun c => congrArg src (LibCol.lift_last h p c))

/-- The sum of row `p`. -/
theorem row_sum (src : FVec Ideal ⟨2, ![R, C]⟩ .f32) (acc : BitVec 32) (h : (⟨2, ![R, C]⟩ : Shape).Reduces [1] ⟨1, ![R]⟩)
    (hφ : FKind.Formats .f32) (hacc : acc = FKind.add.neutral .f32 hφ) (p : Fin R) :
    multiReduction .add [1] ⟨1, ![R]⟩ src acc h hφ hacc (ix1 p) = ∑ c : Fin C, src (ix2 p c) :=
  (Ideal.multiReduction_add_single src acc h hφ hacc (ix1 p)).trans
    (Finset.sum_congr rfl fun c _ => congrArg src (LibCol.lift_last h p c))

/-- The sum of a column `q` over the rows. -/
theorem col_sum (src : FVec Ideal ⟨2, ![R, C]⟩ .f32) (acc : BitVec 32) (h : (⟨2, ![R, C]⟩ : Shape).Reduces [0] ⟨1, ![C]⟩)
    (hφ : FKind.Formats .f32) (hacc : acc = FKind.add.neutral .f32 hφ) (q : Fin C) :
    multiReduction .add [0] ⟨1, ![C]⟩ src acc h hφ hacc (ix1 q) = ∑ r : Fin R, src (ix2 r q) :=
  (Ideal.multiReduction_add_single src acc h hφ hacc (ix1 q)).trans
    (Finset.sum_congr rfl fun r _ => congrArg src (LibCol.lift_first h q r))

end Cert.LibRowReduce

end
-- ==== Proof.PayIsHead.lean ====
/-
  The kernel body's one stored value, read at an index, is one attention head.

  The stored [1,64,2048] value is built from the query, key and value blocks by: dropping the leading unit axis;
  multiplying queries and keys by the scale; the product of the scaled queries' transpose with the scaled keys
  (the logits, a [2048,2048] array); each row's maximum folded from −∞ and joined once more with −∞; the exponential
  of each logit minus its row's maximum; each row's sum of those; their quotient; and the product of the values
  with the transpose of the quotients. Every narrowing of format is the identity on the extended reals. Each stage
  below is the corresponding sub-term as a function of the previous stage, read at an index, and the last theorem
  composes them into `Cert.Attn.head`.
-/
import proofs.«172822_j14516989460772_1_alg».proof.Proof.Gen.KernelIdeal.Skeleton
import proofs.«172822_j14516989460772_1_alg».proof.Proof.AttnSpec
import proofs.«172822_j14516989460772_1_alg».proof.Proof.LibDotCol
import proofs.«172822_j14516989460772_1_alg».proof.Proof.LibDotRows
import proofs.«172822_j14516989460772_1_alg».proof.Proof.LibCol
import proofs.«172822_j14516989460772_1_alg».proof.Proof.LibRowReduce
import Idealize.ShloMosaic.Lib.ValueIdx
import Idealize.ShloMosaic.Lib.ValueLayout
import Idealize.ShloMosaic.PureOps.Ideal.Laws

noncomputable section

open scoped BigOperators

namespace Cert.Attn.Pay

open Idealize.ShloMosaic Idealize.ShloMosaic.ValueIdx Cert.KernelIdeal

/-! ## The stages, as functions of the previous stage -/

/-- A [1,64,2048] block without its leading unit axis. -/
def flat (x : Vec Ideal S1x64x2048 .f32) : FVec Ideal S64x2048 .f32 :=
  shapeCast S64x2048 x Gen.shapeCasts_S1x64x2048_S64x2048

/-- A block without its unit axis, every entry times the scale, narrowed. -/
def scaled (x : Vec Ideal S1x64x2048 .f32) : FVec Ideal S64x2048 .bf16 :=
  truncf .bf16 (mulf (flat x) (broadcast S64x2048 (Scalar.ofBits .f32 0x3EB504F3#32))) Gen.bitsLt_bf16_f32

/-- The logits: the scaled queries' transpose times the scaled keys, accumulated into zero. -/
def logits (x0 x5 : Vec Ideal S1x64x2048 .f32) : FVec Ideal S2048x2048 .f32 :=
  matmul dot_S64x2048_S64x2048_S2048x2048_0_0_1_1_n_n none (scaled x0) (scaled x5) (constant S2048x2048 .f32 0x00000000#32)

/-- Each row's maximum, folded from −∞ and joined with −∞. -/
def rmax (w : FVec Ideal S2048x2048 .f32) : FVec Ideal S2048 .f32 :=
  maximumf (broadcast S2048 (Scalar.ofBits .f32 0xFF800000#32))
    (multiReduction .maximumf [1] S2048 w 0xFF800000#32 Gen.reduces_S2048x2048_S2048 (.inl rfl) rfl)

/-- A vector of 2048 entries as a column, repeated along 2048 lanes. -/
def spread (m : FVec Ideal S2048 .f32) : FVec Ideal S2048x2048 .f32 :=
  broadcastTo S2048x2048 (shapeCast S2048x1 m Gen.shapeCasts_S2048_S2048x1 : FVec Ideal S2048x1 .f32) Gen.broadcasts_S2048x1_S2048x2048

/-- The exponential of each entry minus its row's maximum. -/
def expos (w : FVec Ideal S2048x2048 .f32) : FVec Ideal S2048x2048 .f32 := exp (subf w (spread (rmax w)))

/-- Each row's sum. -/
def rsum (e : FVec Ideal S2048x2048 .f32) : FVec Ideal S2048 .f32 :=
  multiReduction .add [1] S2048 e 0x00000000#32 Gen.reduces_S2048x2048_S2048 (.inl rfl) rfl

/-- Each shifted exponential over its row's sum, narrowed. -/
def probs (w : FVec Ideal S2048x2048 .f32) : FVec Ideal S2048x2048 .bf16 :=
  truncf .bf16 (divf (expos w) (spread (rsum (expos w)))) Gen.bitsLt_bf16_f32

/-- The values times the transpose of the weights, accumulated into zero, with the unit axis put back. -/
def outv (x10 : Vec Ideal S1x64x2048 .f32) (p : FVec Ideal S2048x2048 .bf16) : FVec Ideal S1x64x2048 .f32 :=
  shapeCast S1x64x2048
    (matmul dot_S64x2048_S2048x2048_S64x2048_1_1_0_0_n_n none (truncf .bf16 (flat x10) Gen.bitsLt_bf16_f32) p
      (constant S64x2048 .f32 0x00000000#32) : FVec Ideal S64x2048 .f32)
    Gen.shapeCasts_S64x2048_S1x64x2048

/-- The stored value is the composition of the stages. -/
theorem pay_eq_stages (x0 x5 x10 : Vec Ideal S1x64x2048 .f32) :
    Gen.k0_pay1 (F := Ideal) x0 x5 x10 = outv x10 (probs (logits x0 x5)) := rfl

/-! ## Each stage read at an index -/

theorem flat_at (x : Vec Ideal S1x64x2048 .f32) (c : Fin 64) (t : Fin 2048) :
    flat x (ix2 c t) = x (ix3 (0 : Fin 1) c t) :=
  shapeCast_1ab_ab_apply x Gen.shapeCasts_S1x64x2048_S64x2048 c t

theorem scaled_at (x : Vec Ideal S1x64x2048 .f32) (c : Fin 64) (t : Fin 2048) :
    scaled x (ix2 c t) = x (ix3 (0 : Fin 1) c t) * sigma :=
  congrArg (· * sigma) (flat_at x c t)

theorem isColCol : LibDotCol.IsColCol (K := 64) (M := 2048) (N := 2048) dot_S64x2048_S64x2048_S2048x2048_0_0_1_1_n_n :=
  ⟨rfl, rfl, rfl, rfl, rfl, rfl⟩

theorem isRows : LibDotRows.IsRows (M := 64) (K := 2048) (N := 2048) dot_S64x2048_S2048x2048_S64x2048_1_1_0_0_n_n :=
  ⟨rfl, rfl, rfl, rfl, rfl, rfl⟩

/-- The logit of query position `t` against key position `s`. -/
theorem logits_at (x0 x5 : Vec Ideal S1x64x2048 .f32) (t s : Fin 2048) :
    logits x0 x5 (ix2 t s)
      = logit (fun c t => x0 (ix3 (0 : Fin 1) c t)) (fun c t => x5 (ix3 (0 : Fin 1) c t)) t s :=
  (LibDotCol.matmul_zero_apply _ isColCol none (scaled x0) (scaled x5) t s).trans
    (Finset.sum_congr rfl fun c _ => by rw [scaled_at, scaled_at])

/-- A row's maximum. -/
theorem rmax_at (w : FVec Ideal S2048x2048 .f32) (t : Fin 2048) :
    rmax w (ix1 t) = rowMax (fun t s => w (ix2 t s)) t := by
  unfold rmax rowMax
  rw [maximumf_apply, broadcast_apply]
  exact congrArg (max negInf) (LibRowReduce.row_max w _ _ _ _ t)

/-- A column repeated along the lanes, at (t, s), is the vector at `t`. -/
theorem spread_at (m : FVec Ideal S2048 .f32) (t s : Fin 2048) : spread m (ix2 t s) = m (ix1 t) :=
  (LibCol.broadcastTo_a1_ab_apply _ Gen.broadcasts_S2048x1_S2048x2048 t s).trans
    (LibCol.shapeCast_a_a1_apply m Gen.shapeCasts_S2048_S2048x1 t 0)

/-- A shifted exponential. -/
theorem expos_at (w : FVec Ideal S2048x2048 .f32) (t s : Fin 2048) :
    expos w (ix2 t s) = expo (fun t s => w (ix2 t s)) t s := by
  unfold expos expo
  show FloatOps.exp (subf w (spread (rmax w)) (ix2 t s)) = _
  rw [Ideal.exp_def, subf_apply, spread_at, rmax_at]

/-- A row's sum of shifted exponentials. -/
theorem rsum_at (w : FVec Ideal S2048x2048 .f32) (t : Fin 2048) :
    rsum (expos w) (ix1 t) = rowSum (fun t s => w (ix2 t s)) t :=
  (LibRowReduce.row_sum (expos w) 0x00000000#32 Gen.reduces_S2048x2048_S2048 (.inl rfl) rfl t).trans
    (Finset.sum_congr rfl fun s _ => expos_at w t s)

/-- A softmax weight. -/
theorem probs_at (w : FVec Ideal S2048x2048 .f32) (t s : Fin 2048) :
    probs w (ix2 t s) = prob (fun t s => w (ix2 t s)) t s := by
  unfold probs prob
  rw [truncf_apply, divf_apply, spread_at, rsum_at, expos_at]

/-- The last product at channel `c`, position `t`. -/
theorem outv_at (x10 : Vec Ideal S1x64x2048 .f32) (p : FVec Ideal S2048x2048 .bf16) (c : Fin 64) (t : Fin 2048) :
    outv x10 p (ix3 (0 : Fin 1) c t) = ∑ s : Fin 2048, x10 (ix3 (0 : Fin 1) c s) * p (ix2 t s) :=
  (shapeCast_ab_1ab_apply _ Gen.shapeCasts_S64x2048_S1x64x2048 (0 : Fin 1) c t).trans
    ((LibDotRows.matmul_zero_apply _ isRows none _ p c t).trans
      (Finset.sum_congr rfl fun s _ => congrArg (· * p (ix2 t s)) (flat_at x10 c s)))

/-! ## The stored value is the head -/

/-- The kernel body's stored value at channel `c`, position `t` is the attention head of its three blocks. -/
theorem pay_at [Cert.KernelIdeal.Facts] (x0 x5 x10 : Vec Ideal Cert.KernelIdeal.S1x64x2048 .f32) (c : Fin 64) (t : Fin 2048) :
    Cert.KernelIdeal.Gen.k0_pay1 (F := Ideal) x0 x5 x10 (ValueIdx.ix3 (0 : Fin 1) c t)
      = Cert.Attn.head (fun c t => x0 (ValueIdx.ix3 (0 : Fin 1) c t)) (fun c t => x5 (ValueIdx.ix3 (0 : Fin 1) c t))
          (fun c t => x10 (ValueIdx.ix3 (0 : Fin 1) c t)) c t := by
  rw [pay_eq_stages, outv_at]
  unfold head
  refine Finset.sum_congr rfl fun s _ => congrArg (x10 (ix3 (0 : Fin 1) c s) * ·) ?_
  rw [probs_at]
  exact congrArg (fun w => prob w t s) (funext fun t => funext fun s => logits_at x0 x5 t s)

end Cert.Attn.Pay

end
-- ==== Proof.KernelIdealValue.lean ====
/-
  The result array of the idealized kernel, as one function of the packed array.

  At a grid point the three input windows sit at the output window's batch and at its head block shifted by 0, 8
  and 16 blocks of 64 rows (decided over the 32 points), so the blocks the body loads are the query, key and value
  rows of that batch and head, and what the point writes back — the attention payload of those blocks, read
  entry by entry as one head's softmax-weighted average — is the (batch, head) block of the specification `G`. The
  32 blocks tile the result array, so after the run the array IS `G` of the packed array as launched.
-/
import proofs.«172822_j14516989460772_1_alg».proof.Proof.KernelIdealLaunch
import proofs.«172822_j14516989460772_1_alg».proof.Proof.AttnSpec
import proofs.«172822_j14516989460772_1_alg».proof.Proof.PayIsHead
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem zero3 : (![0, 0, 0] : Fin 3 → Nat) = fun _ => 0 := funext fun a => by fin_cases a <;> rfl

/-- The printed index maps, decided over the 32 points: at a point the query, key and value windows sit at the output
    window's batch, at its head block shifted by 0, 8 and 16 blocks of 64 rows, and every window takes whole rows. -/
theorem index_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = win0_3.index t (1 : Fin 3) + 8 ∧ win0_1.index t (2 : Fin 3) = 0
    ∧ win0_2.index t (0 : Fin 3) = win0_3.index t (0 : Fin 3) ∧ win0_2.index t (1 : Fin 3) = win0_3.index t (1 : Fin 3) + 16 ∧ win0_2.index t (2 : Fin 3) = 0
    ∧ win0_3.index t (0 : Fin 3) ≤ 3 ∧ win0_3.index t (1 : Fin 3) ≤ 7 ∧ win0_3.index t (2 : Fin 3) = 0 :=
  (by decide +kernel : ∀ t : Fin grid0.N, _)

/-- Every (batch, head) block of the result is some point's. -/
theorem index_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-- WHAT POINT `t` WRITES BACK is block `t` of `G` of the packed array as the region finds it. -/
theorem flushed_eq (c : Dev nD) (t : Fin cfg0.N) :
    (dats m 0 c).flushed 3 t = ((cfg0.win 3).blk t).view.read (Elt Ideal) (Cert.Attn.G (m ((c : Thread nD τ).loc main_arg0))) := by
  show (cfg0.win 3).cut (grid0.coords t) ((dats m 0 c).after 3 t) = _
  rw [after_o]
  unfold headBlock
  rw [View.canon_unit_zero zero3]
  simp only [View.ld_unit_zero (S := S1x64x2048) zero3]
  obtain ⟨e00, e01, e02, e10, e11, e12, e20, e21, e22, hb, hh, e32⟩ := index_facts t
  refine funext fun (j : S1x64x2048.Idx) => ?_
  show k0_pay1 (blockAt m c 0 t) (blockAt m c 1 t) (blockAt m c 2 t) j
    = Cert.Attn.G (m ((c : Thread nD τ).loc main_arg0)) (((cfg0.win 3).blk t).view.emb j)
  obtain ⟨z, cc, s, rfl⟩ : ∃ (z : Fin 1) (cc : Fin 64) (s : Fin 2048), j = ix3 z cc s := ⟨j 0, j 1, j 2, eq_ix3 j⟩
  obtain rfl : z = 0 := Subsingleton.elim _ _
  refine (Cert.Attn.Pay.pay_at (blockAt m c 0 t) (blockAt m c 1 t) (blockAt m c 2 t) cc s).trans ?_
  have hout : ((cfg0.win 3).blk t).view.emb (ix3 (0 : Fin 1) cc s)
      = ix3 (⟨win0_3.index t (0 : Fin 3), by omega⟩ : Fin 4)
          (⟨(⟨win0_3.index t (1 : Fin 3), by omega⟩ : Fin 8).val * 64 + cc.val, by have := cc.isLt; show win0_3.index t (1 : Fin 3) * 64 + cc.val < 512; omega⟩ : Fin 512) s := by
    funext a; apply Fin.ext
    match a with
    | ⟨0, _⟩ => show win0_3.index t (0 : Fin 3) * 1 + 1 * 0 = win0_3.index t (0 : Fin 3); omega
    | ⟨1, _⟩ => show win0_3.index t (1 : Fin 3) * 64 + 1 * cc.val = win0_3.index t (1 : Fin 3) * 64 + cc.val; omega
    | ⟨2, _⟩ => show win0_3.index t (2 : Fin 3) * 2048 + 1 * s.val = s.val; omega
  rw [hout, Cert.Attn.G_ix3]
  unfold Cert.Attn.outAt
  have hq : (fun (c' : Fin 64) (s' : Fin 2048) => blockAt m c 0 t (ix3 (0 : Fin 1) c' s'))
      = Cert.Attn.block (m ((c : Thread nD τ).loc main_arg0)) 0 (by omega) ⟨win0_3.index t (0 : Fin 3), by omega⟩ ⟨win0_3.index t (1 : Fin 3), by omega⟩ := by
    funext c' s'
    show m ((c : Thread nD τ).loc main_arg0) (((cfg0.win 0).blk t).view.emb (ix3 (0 : Fin 1) c' s')) = m ((c : Thread nD τ).loc main_arg0) _
    refine congrArg _ (funext fun a => Fin.ext ?_)
    match a with
    | ⟨0, _⟩ => show win0_0.index t (0 : Fin 3) * 1 + 1 * 0 = win0_3.index t (0 : Fin 3); omega
    | ⟨1, _⟩ => show win0_0.index t (1 : Fin 3) * 64 + 1 * c'.val = 0 + win0_3.index t (1 : Fin 3) * 64 + c'.val; omega
    | ⟨2, _⟩ => show win0_0.index t (2 : Fin 3) * 2048 + 1 * s'.val = s'.val; omega
  have hk : (fun (c' : Fin 64) (s' : Fin 2048) => blockAt m c 1 t (ix3 (0 : Fin 1) c' s'))
      = Cert.Attn.block (m ((c : Thread nD τ).loc main_arg0)) 512 (by omega) ⟨win0_3.index t (0 : Fin 3), by omega⟩ ⟨win0_3.index t (1 : Fin 3), by omega⟩ := by
    funext c' s'
    show m ((c : Thread nD τ).loc main_arg0) (((cfg0.win 1).blk t).view.emb (ix3 (0 : Fin 1) c' s')) = m ((c : Thread nD τ).loc main_arg0) _
    refine congrArg _ (funext fun a => Fin.ext ?_)
    match a with
    | ⟨0, _⟩ => show win0_1.index t (0 : Fin 3) * 1 + 1 * 0 = win0_3.index t (0 : Fin 3); omega
    | ⟨1, _⟩ => show win0_1.index t (1 : Fin 3) * 64 + 1 * c'.val = 512 + win0_3.index t (1 : Fin 3) * 64 + c'.val; omega
    | ⟨2, _⟩ => show win0_1.index t (2 : Fin 3) * 2048 + 1 * s'.val = s'.val; omega
  have hv : (fun (c' : Fin 64) (s' : Fin 2048) => blockAt m c 2 t (ix3 (0 : Fin 1) c' s'))
      = Cert.Attn.block (m ((c : Thread nD τ).loc main_arg0)) 1024 (by omega) ⟨win0_3.index t (0 : Fin 3), by omega⟩ ⟨win0_3.index t (1 : Fin 3), by omega⟩ := by
    funext c' s'
    show m ((c : Thread nD τ).loc main_arg0) (((cfg0.win 2).blk t).view.emb (ix3 (0 : Fin 1) c' s')) = m ((c : Thread nD τ).loc main_arg0) _
    refine congrArg _ (funext fun a => Fin.ext ?_)
    match a with
    | ⟨0, _⟩ => show win0_2.index t (0 : Fin 3) * 1 + 1 * 0 = win0_3.index t (0 : Fin 3); omega
    | ⟨1, _⟩ => show win0_2.index t (1 : Fin 3) * 64 + 1 * c'.val = 1024 + win0_3.index t (1 : Fin 3) * 64 + c'.val; omega
    | ⟨2, _⟩ => show win0_2.index t (2 : Fin 3) * 2048 + 1 * s'.val = s'.val; omega
  rw [hq, hk, hv]

/-- An index of the result array is in point `t`'s block iff each coordinate is in the block's range on its axis. -/
theorem mem_block (t : Fin cfg0.N) (i : S4x512x2048.Idx) :
    i ∈ ((cfg0.win 3).blk t).view.set ↔ ∀ a : Fin 3, win0_3.index t a * S1x64x2048.size a ≤ (i a).val ∧ (i a).val < win0_3.index t a * S1x64x2048.size a + S1x64x2048.size a := by
  show i ∈ ((View.whole main_v0).slice (win0_3.rect t)).set ↔ _
  rw [View.set_slice_whole, Rect.mem_set_unit]
  exact Iff.rfl

/-- The 32 blocks tile the result array: index (b, r, s) lies in the block of the point with batch `b` and head `r / 64`. -/
theorem covered (i : S4x512x2048.Idx) : ∃ t : Fin cfg0.N, (cfg0.win 3).flush t = true ∧ i ∈ ((cfg0.win 3).blk t).view.set := by
  have hi0 : (i 0).val < 4 := (i 0).isLt
  have hi1 : (i 1).val < 512 := (i 1).isLt
  have hi2 : (i 2).val < 2048 := (i 2).isLt
  obtain ⟨t, ht⟩ := index_onto ⟨(i 0).val, hi0⟩ ⟨(i 1).val / 64, by omega⟩
  have q0 : win0_3.index t (0 : Fin 3) = (i 0).val := congrFun ht 0
  have q1 : win0_3.index t (1 : Fin 3) = (i 1).val / 64 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 2048 ≤ (i 2).val ∧ (i 2).val < win0_3.index t (2 : Fin 3) * 2048 + 2048; omega

/-- THE RESULT ARRAY after the run is `G` of the packed array as launched. -/
theorem result_is (c : Dev nD) : (dats m 0 c).arrAt 3 cfg0.N = Cert.Attn.G (m ((c : Thread nD τ).loc main_arg0)) :=
  (dats m 0 c).arrAt_eq_of_cover 3 (Cert.Attn.G (m ((c : Thread nD τ).loc main_arg0))) (fun t _ => flushed_eq m c t) covered

/-- The run, read: every weakly fair execution of @main terminates without a fault, with the result array at `G` of the
    packed array and the packed array as launched. -/
theorem run_value : θ_run defs (onTc (τ := τ) (main (F := Ideal))) ⟨m, fun _ => 0, ρ⟩ (fun r => ∀ c : Dev nD,
      r.2.mem ((c.tc : Thread nD τ).loc main_v0) = Cert.Attn.G (m ((c.tc : Thread nD τ).loc main_arg0))
      ∧ r.2.mem ((c.tc : Thread nD τ).loc main_arg0) = m ((c.tc : Thread nD τ).loc main_arg0)) :=
  (θ_run defs _ _).mono (fun _ h c => ⟨(h c 3).trans (result_is m c),
    (h c 0).trans (((dats m 0 c).arrAt_in 0 rfl _).trans (A_eq m c 0))⟩) (run m ρ)

end Cert.KernelIdeal.Run

end
-- ==== Proof.RefIsAttn.lean ====
/-
  The reference program computes the specification: its thirty host operations, read one at a time at an index,
  are the scaled dot-product attention of AttnSpec. Each stage below reads one intermediate array at explicit
  coordinates (bh the merged batch-and-head index, c the channel, t the query position, s the key position).
  The merged index bh stands for batch bh / 8 and head bh % 8: the reshape [4,512,2048] → [32,64,2048] keeps the
  row-major position, so (bh, c, t) is read at (bh / 8, (bh % 8)·64 + c, t).
-/
import proofs.«172822_j14516989460772_1_alg».proof.Proof.Gen.ReferenceIdeal.Read
import proofs.«172822_j14516989460772_1_alg».proof.Proof.AttnSpec
import Idealize.ShloMosaic.PureOps.Reduce
import Idealize.ShloMosaic.PureOps.Ideal.Laws
import Idealize.ShloMosaic.Lib.ValueIdx

noncomputable section

namespace Cert.Attn.Ref

open Cert.ReferenceIdeal Cert.ReferenceIdeal.Gen Cert.ReferenceIdeal.Read Idealize.ShloMosaic Idealize.ShloMosaic.ValueIdx

/-- The packed input array. -/
abbrev X : Type := (⟨S4x1536x2048, .f32⟩ : BufTy).Contents (Elt Ideal)

/-- The batch of a merged batch-and-head index. -/
def bOf (bh : Fin 32) : Fin 4 := ⟨bh.val / 8, by have := bh.isLt; omega⟩
/-- The head of a merged batch-and-head index. -/
def hOf (bh : Fin 32) : Fin 8 := ⟨bh.val % 8, by have := bh.isLt; omega⟩

/-- The query block of the merged index. -/
def qOf (x : X) (bh : Fin 32) : Fin 64 → Fin 2048 → EReal := block x 0 (by omega) (bOf bh) (hOf bh)
/-- The key block of the merged index. -/
def kOf (x : X) (bh : Fin 32) : Fin 64 → Fin 2048 → EReal := block x 512 (by omega) (bOf bh) (hOf bh)
/-- The value block of the merged index. -/
def vOf (x : X) (bh : Fin 32) : Fin 64 → Fin 2048 → EReal := block x 1024 (by omega) (bOf bh) (hOf bh)

/-! ## Where the reshapes and slices read -/

/-- The query slice under the reshape: (bh, c, t) is row (bh % 8)·64 + c of batch bh / 8. -/
theorem idx_q (bh : Fin 32) (c : Fin 64) (t : Fin 2048) :
    idx_main_v0 (idx_main_v5 (ix3 bh c t)) = ix3 (bOf bh) (packedRow 0 (by omega) (hOf bh) c) t := by
  have hb := bh.isLt; have hc := c.isLt; have ht := t.isLt
  funext a
  match a with
  | ⟨0, _⟩ => exact Fin.ext (by show ((bh.val * 64 + c.val) * 2048 + t.val) / 1048576 = bh.val / 8; omega)
  | ⟨1, _⟩ => exact Fin.ext (by show ((bh.val * 64 + c.val) * 2048 + t.val) / 2048 % 512 = 0 + bh.val % 8 * 64 + c.val; omega)
  | ⟨2, _⟩ => exact Fin.ext (by show ((bh.val * 64 + c.val) * 2048 + t.val) % 2048 = t.val; omega)

/-- The key slice under the reshape: 512 rows further down. -/
theorem idx_k (bh : Fin 32) (c : Fin 64) (t : Fin 2048) :
    idx_main_v1 (idx_main_v8 (ix3 bh c t)) = ix3 (bOf bh) (packedRow 512 (by omega) (hOf bh) c) t := by
  have hb := bh.isLt; have hc := c.isLt; have ht := t.isLt
  funext a
  match a with
  | ⟨0, _⟩ => exact Fin.ext (by show ((bh.val * 64 + c.val) * 2048 + t.val) / 1048576 = bh.val / 8; omega)
  | ⟨1, _⟩ => exact Fin.ext (by show 512 + ((bh.val * 64 + c.val) * 2048 + t.val) / 2048 % 512 = 512 + bh.val % 8 * 64 + c.val; omega)
  | ⟨2, _⟩ => exact Fin.ext (by show ((bh.val * 64 + c.val) * 2048 + t.val) % 2048 = t.val; omega)

/-- The value slice under the reshape: 1024 rows further down. -/
theorem idx_v (bh : Fin 32) (c : Fin 64) (t : Fin 2048) :
    idx_main_v2 (idx_main_v9 (ix3 bh c t)) = ix3 (bOf bh) (packedRow 1024 (by omega) (hOf bh) c) t := by
  have hb := bh.isLt; have hc := c.isLt; have ht := t.isLt
  funext a
  match a with
  | ⟨0, _⟩ => exact Fin.ext (by show ((bh.val * 64 + c.val) * 2048 + t.val) / 1048576 = bh.val / 8; omega)
  | ⟨1, _⟩ => exact Fin.ext (by show 1024 + ((bh.val * 64 + c.val) * 2048 + t.val) / 2048 % 512 = 1024 + bh.val % 8 * 64 + c.val; omega)
  | ⟨2, _⟩ => exact Fin.ext (by show ((bh.val * 64 + c.val) * 2048 + t.val) % 2048 = t.val; omega)

/-! ## The three operands -/

/-- The scaled, reshaped queries. -/
theorem v5_at (x : X) (bh : Fin 32) (c : Fin 64) (t : Fin 2048) :
    val_main_v5 (F := Ideal) x (ix3 bh c t) = qOf x bh c t * sigma := by
  rw [val_main_v5_apply, val_main_v4_apply, val_main_v0_apply, val_main_v3_apply, val_main_cst_apply, idx_q]
  rfl

/-- The scaled, reshaped keys. -/
theorem v8_at (x : X) (bh : Fin 32) (c : Fin 64) (t : Fin 2048) :
    val_main_v8 (F := Ideal) x (ix3 bh c t) = kOf x bh c t * sigma := by
  rw [val_main_v8_apply, val_main_v7_apply, val_main_v1_apply, val_main_v6_apply, val_main_cst_0_apply, idx_k]
  rfl

/-- The reshaped values. -/
theorem v9_at (x : X) (bh : Fin 32) (c : Fin 64) (t : Fin 2048) :
    val_main_v9 (F := Ideal) x (ix3 bh c t) = vOf x bh c t := by
  rw [val_main_v9_apply, val_main_v2_apply, idx_v]
  rfl

/-! ## The logits -/

/-- The first batched product at (bh, t, s): the logit of query position t against key position s. -/
theorem v10_at (x : X) (bh : Fin 32) (t s : Fin 2048) :
    val_main_v10 (F := Ideal) x (ix3 bh t s) = logit (qOf x bh) (kOf x bh) t s := by
  rw [val_main_v10_apply]
  unfold logit
  refine Finset.sum_congr rfl fun c _ => ?_
  have el : lidx_main_v10 (ix3 bh t s) c = ix3 bh c t := by
    funext a; match a with | ⟨0, _⟩ => rfl | ⟨1, _⟩ => rfl | ⟨2, _⟩ => rfl
  have er : ridx_main_v10 (ix3 bh t s) c = ix3 bh c s := by
    funext a; match a with | ⟨0, _⟩ => rfl | ⟨1, _⟩ => rfl | ⟨2, _⟩ => rfl
  rw [el, er, v5_at, v8_at]

/-! ## The row maximum -/

/-- Dropping the last axis of [32,2048,2048] leaves [32,2048]. -/
theorem reduces_d2 : S32x2048x2048.Reduces [2] S32x2048 := by decide

/-- The index over (bh, t) with the key position put back is (bh, t, s). -/
theorem lift_d2 (bh : Fin 32) (t : Fin 2048) (s : Fin 2048) :
    reduces_d2.lift (ix2 bh t) s = ix3 bh t s := by
  funext c; apply Fin.ext
  match c with | ⟨0, _⟩ => rfl | ⟨1, _⟩ => rfl | ⟨2, _⟩ => rfl

/-- From −∞ the maximum over the last axis of any [32,2048,2048] array, at (bh, t), is the fold of max over the key positions. -/
theorem reduceMax_at (w : S32x2048x2048.Idx → EReal) (bh : Fin 32) (t : Fin 2048) :
    Host.reduce (FloatOps.maximumf (F := Ideal) (φ := .f32)) w (val_main_cst_1 (F := Ideal)) reducesTo_S32x2048x2048_S32x2048_d2 h_S_ (ix2 bh t)
      = (Finset.univ : Finset (Fin 2048)).fold max negInf (fun s => w (ix3 bh t s)) := by
  rw [Host.reduce_eq_fold_single (FloatOps.maximumf (F := Ideal) (φ := .f32)) w _ reducesTo_S32x2048x2048_S32x2048_d2 reduces_d2 h_S_]
  have hf : (w ∘ reduces_d2.lift (ix2 bh t)) = fun s : Fin 2048 => w (ix3 bh t s) :=
    funext fun s => congrArg w (lift_d2 bh t s)
  exact congrArg (fun f => Finset.fold max negInf f (Finset.univ : Finset (Fin 2048))) hf

/-- The folded maximum of row t of the logits. -/
theorem v11_at (x : X) (bh : Fin 32) (t : Fin 2048) :
    val_main_v11 (F := Ideal) x (ix2 bh t)
      = (Finset.univ : Finset (Fin 2048)).fold max negInf (fun s => logit (qOf x bh) (kOf x bh) t s) := by
  unfold val_main_v11
  rw [reduceMax_at]
  exact congrArg (fun f => Finset.fold max negInf f (Finset.univ : Finset (Fin 2048))) (funext fun s => v10_at x bh t s)

/-- The row maximum joined once more with −∞. -/
theorem v13_at (x : X) (bh : Fin 32) (t : Fin 2048) :
    val_main_v13 (F := Ideal) x (ix2 bh t) = rowMax (logit (qOf x bh) (kOf x bh)) t := by
  rw [val_main_v13_apply, val_main_v12_apply, val_main_cst_2_apply, v11_at]
  rfl

/-! ## The softmax weights -/

/-- The two broadcasts [32,2048] → [32,2048,1] → [32,2048,2048] read (bh, t, s) at (bh, t). -/
theorem idx_row15 (bh : Fin 32) (t s : Fin 2048) : idx_main_v14 (idx_main_v15 (ix3 bh t s)) = ix2 bh t := by
  funext a; match a with | ⟨0, _⟩ => rfl | ⟨1, _⟩ => rfl

theorem idx_row20 (bh : Fin 32) (t s : Fin 2048) : idx_main_v19 (idx_main_v20 (ix3 bh t s)) = ix2 bh t := by
  funext a; match a with | ⟨0, _⟩ => rfl | ⟨1, _⟩ => rfl

/-- The shifted exponentials. -/
theorem v17_at (x : X) (bh : Fin 32) (t s : Fin 2048) :
    val_main_v17 (F := Ideal) x (ix3 bh t s) = expo (logit (qOf x bh) (kOf x bh)) t s := by
  rw [val_main_v17_apply, val_main_v16_apply, v10_at, val_main_v15_apply, val_main_v14_apply, idx_row15, v13_at]
  rfl

/-- The row sums of the shifted exponentials: the zero word plus the sum over the key positions. -/
theorem v18_at (x : X) (bh : Fin 32) (t : Fin 2048) :
    val_main_v18 (F := Ideal) x (ix2 bh t) = rowSum (logit (qOf x bh) (kOf x bh)) t := by
  rw [val_main_v18_apply, val_main_cst_3_apply]
  show Ideal.ofBits .f32 0x00000000#32 + _ = _
  rw [Ideal.ofBits_zero_f32, zero_add]
  unfold rowSum
  refine Finset.sum_congr rfl fun s _ => ?_
  have e : idx_main_v18 (ix2 bh t) s = ix3 bh t s := by
    funext a; match a with | ⟨0, _⟩ => rfl | ⟨1, _⟩ => rfl | ⟨2, _⟩ => rfl
  rw [e, v17_at]

/-- The softmax weights. -/
theorem v21_at (x : X) (bh : Fin 32) (t s : Fin 2048) :
    val_main_v21 (F := Ideal) x (ix3 bh t s) = prob (logit (qOf x bh) (kOf x bh)) t s := by
  rw [val_main_v21_apply, v17_at, val_main_v20_apply, val_main_v19_apply, idx_row20, v18_at]
  rfl

/-! ## The output -/

/-- The second batched product at (bh, c, t): the values of channel c averaged with row t's weights. -/
theorem v22_at (x : X) (bh : Fin 32) (c : Fin 64) (t : Fin 2048) :
    val_main_v22 (F := Ideal) x (ix3 bh c t) = head (qOf x bh) (kOf x bh) (vOf x bh) c t := by
  rw [val_main_v22_apply]
  unfold head
  refine Finset.sum_congr rfl fun s _ => ?_
  have el : lidx_main_v22 (ix3 bh c t) s = ix3 bh c s := by
    funext a; match a with | ⟨0, _⟩ => rfl | ⟨1, _⟩ => rfl | ⟨2, _⟩ => rfl
  have er : ridx_main_v22 (ix3 bh c t) s = ix3 bh t s := by
    funext a; match a with | ⟨0, _⟩ => rfl | ⟨1, _⟩ => rfl | ⟨2, _⟩ => rfl
  rw [el, er, v9_at, v21_at]

/-- The reshape back: (b, r, t) of the result is (b·8 + r / 64, r % 64, t) of the batched product. -/
theorem idx_out (b : Fin 4) (r : Fin 512) (t : Fin 2048) :
    idx_main_v23 (ix3 b r t)
      = ix3 (⟨b.val * 8 + r.val / 64, by have := b.isLt; have := r.isLt; omega⟩ : Fin 32)
          (⟨r.val % 64, by omega⟩ : Fin 64) t := by
  have hb := b.isLt; have hr := r.isLt; have ht := t.isLt
  funext a
  match a with
  | ⟨0, _⟩ => exact Fin.ext (by show ((b.val * 512 + r.val) * 2048 + t.val) / 131072 = b.val * 8 + r.val / 64; omega)
  | ⟨1, _⟩ => exact Fin.ext (by show ((b.val * 512 + r.val) * 2048 + t.val) / 2048 % 64 = r.val % 64; omega)
  | ⟨2, _⟩ => exact Fin.ext (by show ((b.val * 512 + r.val) * 2048 + t.val) % 2048 = t.val; omega)

/-- Every index of a rank-3 array is its three coordinates. -/
theorem exists_ix3 {n0 n1 n2 : Nat} (j : (⟨3, ![n0, n1, n2]⟩ : Shape).Idx) :
    ∃ (a : Fin n0) (b : Fin n1) (c : Fin n2), j = ix3 a b c := ⟨j 0, j 1, j 2, eq_ix3 j⟩

/-- The reference program's result is the specification's attention of the packed array. -/
theorem ref_eq (x : (⟨Cert.ReferenceIdeal.S4x1536x2048, .f32⟩ : BufTy).Contents (Elt Ideal)) :
    Cert.ReferenceIdeal.Read.val_main_v23 (F := Ideal) x = Cert.Attn.G x := by
  funext i
  obtain ⟨b, r, t, rfl⟩ := exists_ix3 i
  have hb := b.isLt; have hr := r.isLt
  rw [val_main_v23_apply, idx_out, v22_at]
  unfold G
  show _ = outAt x ⟨b.val, _⟩ ⟨r.val / 64, _⟩ ⟨r.val % 64, _⟩ ⟨t.val, _⟩
  unfold outAt qOf kOf vOf
  have e1 : bOf (⟨b.val * 8 + r.val / 64, by omega⟩ : Fin 32) = b :=
    Fin.ext (by show (b.val * 8 + r.val / 64) / 8 = b.val; omega)
  have e2 : hOf (⟨b.val * 8 + r.val / 64, by omega⟩ : Fin 32) = (⟨r.val / 64, by omega⟩ : Fin 8) :=
    Fin.ext (by show (b.val * 8 + r.val / 64) % 8 = r.val / 64; omega)
  rw [e1, e2]

end Cert.Attn.Ref

end
-- ==== Proof.lean ====
/-
  The certificate's five claims, assembled.

  Both kernels, as printed and idealized, run one pipelined region over a 4 × 8 grid of (batch, head) points whose
  three input windows read the ONE packed array; their runs end with the packed array unchanged (the launch modules,
  for any float instance). The reference's run ends with its result at the composed term of its thirty host
  operations and its argument unchanged. The ideal pass rewrote nothing. At the ideal instance the kernel's result
  array is the attention function `G` of the packed array (the value module: each point writes back one head's
  softmax-weighted average of its value rows, and the 32 blocks tile the result) and the reference's composed term
  is the same `G` of its own packed array, operation by operation — the same scale word on queries and keys, the
  same row maximum from −∞, the same exponential, sum and quotient, the same two contractions —; the two packed
  arrays agree by hypothesis, so the results are equal element by element. No step needs the inputs finite.
-/
import proofs.«172822_j14516989460772_1_alg».proof.Defs
import proofs.«172822_j14516989460772_1_alg».proof.Proof.Gen.Kernel
import proofs.«172822_j14516989460772_1_alg».proof.Proof.Gen.KernelIdeal
import proofs.«172822_j14516989460772_1_alg».proof.Proof.Gen.ReferenceIdeal
import proofs.«172822_j14516989460772_1_alg».proof.Proof.Gen.ReferenceIdeal.Run
import proofs.«172822_j14516989460772_1_alg».proof.Proof.Gen.ReferenceIdeal.Read
import proofs.«172822_j14516989460772_1_alg».proof.Proof.Gen.Pre_finite_inputs
import proofs.«172822_j14516989460772_1_alg».proof.Proof.KernelLaunch
import proofs.«172822_j14516989460772_1_alg».proof.Proof.KernelIdealLaunch
import proofs.«172822_j14516989460772_1_alg».proof.Proof.KernelIdealValue
import proofs.«172822_j14516989460772_1_alg».proof.Proof.RefIsAttn

noncomputable section

open Idealize.ShloMosaic Idealize.ShloMosaic.TcCoe Idealize.SL.Sem

namespace Cert.Proof

/-- The kernel as printed runs and leaves the packed array unchanged. -/
theorem frame_kernel : Cert.frame_Kernel := fun m ρ _ => Cert.Kernel.Run.frame m ρ

/-- The idealized kernel runs and leaves the packed array unchanged. -/
theorem frame_ideal : Cert.frame_KernelIdeal := fun m ρ _ => Cert.KernelIdeal.Run.frame m ρ

/-- The reference runs and leaves the packed array unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance both programs end with the attention function `G` of the packed array: the kernel by its
    value theorem, the reference because its composed term is `G` of a packed array that agrees with the kernel's. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0)),
    Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Attn.Ref.ref_eq, hagree c]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
